-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32 : Shape := ⟨2, ![64, 32]⟩
abbrev S64x64 : Shape := ⟨2, ![64, 64]⟩
abbrev S32x16 : Shape := ⟨2, ![32, 16]⟩
abbrev S16 : Shape := ⟨1, ![16]⟩
abbrev S16x64 : Shape := ⟨2, ![16, 64]⟩
abbrev S64 : Shape := ⟨1, ![64]⟩
abbrev S32 : Shape := ⟨1, ![32]⟩
abbrev S_ : Shape := ⟨0, ![]⟩

class Facts : Prop where
  bcast_S_S64x32 : S_.BroadcastsInDim S64x32 (![] : Fin 0 → Fin S64x32.rank)
  reducesTo_S64x32_S_d0_1 : S64x32.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S64 .f32) (main_arg8 : FVec F S64x32 .f32) (main_arg9 : FVec F S32 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg8
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg4 : FVec F S16x64 .f32) (main_arg5 : FVec F S64 .f32) (main_arg6 : FVec F S64x64 .f32) (main_arg7 : FVec F S64 .f32) (main_arg8 : FVec F S64x32 .f32) (main_arg9 : FVec F S32 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S64x32 .f32) (main_arg1 : FVec F S64x64 .f32) (main_arg2 : FVec F S32x16 .f32) (main_arg3 : FVec F S16 .f32) (main_arg4 : FVec F S16x64 .f32) (main_arg5 : FVec F S64 .f32) (main_arg6 : FVec F S64x64 .f32) (main_arg7 : FVec F S64 .f32) (main_arg8 : FVec F S64x32 .f32) (main_arg9 : FVec F S32 .f32) : IVec S_ 1 :=
  let main_v0 : FVec F S64x32 .f32 := Host.absf main_arg0
  let main_cst : FVec F S_ .f32 := constant S_ .f32 0x7F800000#32
  let main_v1 : FVec F S64x32 .f32 := broadcastInDim S64x32 ![] bcast_S_S64x32 main_cst
  let main_v2 : IVec S64x32 1 := cmpf .olt main_v0 main_v1
  let main_c : IVec S_ 1 := constantI S_ 1 1#1
  let main_v3 : IVec S_ 1 := (fun x v => Host.reduce IntOp.andi x v reducesTo_S64x32_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S32x16 .f32 := Host.absf main_arg2
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_v13 main_v16
-- ==== Kernel.lean ====
abbrev S64x32 : Shape := ⟨2, ![64, 32]⟩
abbrev S64x64 : Shape := ⟨2, ![64, 64]⟩
abbrev S32x16 : Shape := ⟨2, ![32, 16]⟩
abbrev S16 : Shape := ⟨1, ![16]⟩
abbrev S16x64 : Shape := ⟨2, ![16, 64]⟩
abbrev S64 : Shape := ⟨1, ![64]⟩
abbrev S32 : Shape := ⟨1, ![32]⟩
abbrev S1x16 : Shape := ⟨2, ![1, 16]⟩
abbrev S1x64 : Shape := ⟨2, ![1, 64]⟩
abbrev S1x32 : Shape := ⟨2, ![1, 32]⟩
abbrev S64x1 : Shape := ⟨2, ![64, 1]⟩
abbrev S64x16 : Shape := ⟨2, ![64, 16]⟩

abbrev nBuf : Space → Nat
  | .hbm => 15
  | .vmem => 11
  | .smem => 0
  | _ => 0

abbrev bufTy : (tb : Table) → Fin (tcTables nBuf tb) → BufTy
  | .hbm, ⟨0, _⟩ => ⟨S64x32, .f32⟩
  | .hbm, ⟨1, _⟩ => ⟨S64x64, .f32⟩
  | .hbm, ⟨2, _⟩ => ⟨S32x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S1x16, .f32⟩
  | .hbm, ⟨11, _⟩ => ⟨S1x64, .f32⟩
  | .hbm, ⟨12, _⟩ => ⟨S1x64, .f32⟩
  | .hbm, ⟨13, _⟩ => ⟨S1x32, .f32⟩
  | .hbm, ⟨14, _⟩ => ⟨S64x32, .f32⟩
  | .local _ .vmem, ⟨0, _⟩ => ⟨S64x32, .f32⟩
  | .local _ .vmem, ⟨1, _⟩ => ⟨S64x64, .f32⟩
  | .local _ .vmem, ⟨2, _⟩ => ⟨S32x16, .f32⟩
  | .local _ .vmem, ⟨3, _⟩ => ⟨S1x16, .f32⟩
  | .local _ .vmem, ⟨4, _⟩ => ⟨S16x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x32, .f32⟩
  | .local _ .vmem, ⟨9, _⟩ => ⟨S1x32, .f32⟩
  | .local _ .vmem, ⟨10, _⟩ => ⟨S64x32, .f32⟩
  | _, _ => ⟨S64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S64x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

class Facts₀ : Prop where
  shapeCasts_S16_S1x16 : S16.ShapeCasts S1x16
  shapeCasts_S64_S1x64 : S64.ShapeCasts S1x64
  shapeCasts_S32_S1x32 : S32.ShapeCasts S1x32
  inb_S64x64_S64x64_0_0 : ∀ a, (![0, 0] : Fin 2 → Nat) a + S64x64.size a ≤ S64x64.size a
  h_S64x64 : 0 < S64x64.numel
  iota_S64x64_d0_w32 : S64x64.Iotas .tc 32 [0]
  iota_S64x64_d1_w32 : S64x64.Iotas .tc 32 [1]
  natLt_1_32 : 1 < 32
  reduces_S64x64_S64 : S64x64.Reduces [1] S64
  shapeCasts_S64_S64x1 : S64.ShapeCasts S64x1
  broadcasts_S64x1_S64x64 : S64x1.Broadcasts S64x64
  inb_S64x32_S64x32_0_0 : ∀ a, (![0, 0] : Fin 2 → Nat) a + S64x32.size a ≤ S64x32.size a
  h_S64x32 : 0 < S64x32.numel
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  broadcasts_S64x1_S64x32 : S64x1.Broadcasts S64x32
  dot_S64x32_S32x16_S64x16_1_0_0_1_n_n_wf : DotDims.WF S64x32 S32x16 S64x16 [1] [0] [0] [1] [] []
  dot_S64x16_S16x64_S64x64_1_0_0_1_n_n_wf : DotDims.WF S64x16 S16x64 S64x64 [1] [0] [0] [1] [] []
  dot_S64x64_S64x64_S64x64_1_0_0_1_n_n_wf : DotDims.WF S64x64 S64x64 S64x64 [1] [0] [0] [1] [] []
  dot_S64x64_S64x32_S64x32_1_0_0_1_n_n_wf : DotDims.WF S64x64 S64x32 S64x32 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole

variable [Facts₀]

def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf
def dot_S64x16_S16x64_S64x64_1_0_0_1_n_n : DotDims S64x16 S16x64 S64x64 where
  lhsContracting := [1]
  rhsContracting := [0]
  lhsNonContracting := [0]
  rhsNonContracting := [1]
  lhsBatch := []
  rhsBatch := []
  wf := dot_S64x16_S16x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v0) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v2) false false (stage0_7 0) (sem0_7 0) (Memref.isWhole_whole _) (hstage0_7 0)

abbrev win0_8 : Pipeline.Window sig grid0 :=
  Pipeline.Window.whole (Memref.whole main_arg8) false false (stage0_8 0) (sem0_8 0) (Memref.isWhole_whole _) (hstage0_8 0)

abbrev win0_9 : Pipeline.Window sig grid0 :=
  Pipeline.Window.whole (Memref.whole main_v3) false false (stage0_9 0) (sem0_9 0) (Memref.isWhole_whole _) (hstage0_9 0)

abbrev win0_10 : Pipeline.Window sig grid0 :=
  Pipeline.Window.whole (Memref.whole main_v4) true false (stage0_10 0) (sem0_10 0) (Memref.isWhole_whole _) (hstage0_10 0)

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S64x32 : Shape := ⟨2, ![64, 32]⟩
abbrev S64x64 : Shape := ⟨2, ![64, 64]⟩
abbrev S32x16 : Shape := ⟨2, ![32, 16]⟩
abbrev S16 : Shape := ⟨1, ![16]⟩
abbrev S16x64 : Shape := ⟨2, ![16, 64]⟩
abbrev S64 : Shape := ⟨1, ![64]⟩
abbrev S32 : Shape := ⟨1, ![32]⟩
abbrev S64x16 : Shape := ⟨2, ![64, 16]⟩
abbrev S1x16 : Shape := ⟨2, ![1, 16]⟩
abbrev S_ : Shape := ⟨0, ![]⟩
abbrev S64x1 : Shape := ⟨2, ![64, 1]⟩
abbrev S1x64 : Shape := ⟨2, ![1, 64]⟩
abbrev S1x32 : Shape := ⟨2, ![1, 32]⟩

abbrev nBuf : Space → Nat
  | .hbm => 119
  | .vmem => 0
  | .smem => 0
  | _ => 0

abbrev bufTy : (tb : Table) → Fin (tcTables nBuf tb) → BufTy
  | .hbm, ⟨0, _⟩ => ⟨S64x32, .f32⟩
  | .hbm, ⟨1, _⟩ => ⟨S64x64, .f32⟩
  | .hbm, ⟨2, _⟩ => ⟨S32x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S64x16, .f32⟩
  | .hbm, ⟨11, _⟩ => ⟨S1x16, .f32⟩
  | .hbm, ⟨12, _⟩ => ⟨S64x16, .f32⟩
  | .hbm, ⟨13, _⟩ => ⟨S64x16, .f32⟩
  | .hbm, ⟨14, _⟩ => ⟨S64x64, .i32⟩
  | .hbm, ⟨15, _⟩ => ⟨S64x64, .i32⟩
  | .hbm, ⟨16, _⟩ => ⟨S_, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .i1⟩
  | .hbm, ⟨31, _⟩ => ⟨S_, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64x1, .f32⟩
  | .hbm, ⟨36, _⟩ => ⟨S64x64, .f32⟩
  | .hbm, ⟨37, _⟩ => ⟨S64x64, .f32⟩
  | .hbm, ⟨38, _⟩ => ⟨S1x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S1x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S_, .f32⟩
  | .hbm, ⟨47, _⟩ => ⟨S64x64, .f32⟩
  | .hbm, ⟨48, _⟩ => ⟨S64x64, .f32⟩
  | .hbm, ⟨49, _⟩ => ⟨S64x64, .i32⟩
  | .hbm, ⟨50, _⟩ => ⟨S64x64, .i32⟩
  | .hbm, ⟨51, _⟩ => ⟨S_, .i32⟩
  | .hbm, ⟨52, _⟩ => ⟨S64x64, .i32⟩
  | .hbm, ⟨53, _⟩ => ⟨S64x64, .i32⟩
  | .hbm, ⟨54, _⟩ => ⟨S64x64, .i1⟩
  | .hbm, ⟨55, _⟩ => ⟨S64x64, .f32⟩
  | .hbm, ⟨56, _⟩ => ⟨S64x64, .f32⟩
  | .hbm, ⟨57, _⟩ => ⟨S_, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .i1⟩
  | .hbm, ⟨66, _⟩ => ⟨S_, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S64x1, .f32⟩
  | .hbm, ⟨71, _⟩ => ⟨S64x64, .f32⟩
  | .hbm, ⟨72, _⟩ => ⟨S64x64, .f32⟩
  | .hbm, ⟨73, _⟩ => ⟨S1x64, .f32⟩
  | .hbm, ⟨74, _⟩ => ⟨S64x64, .f32⟩
  | .hbm, ⟨75, _⟩ => ⟨S64x64, .f32⟩
  | .hbm, ⟨76, _⟩ => ⟨S64x64, .f32⟩
  | .hbm, ⟨77, _⟩ => ⟨S1x64, .f32⟩
  | .hbm, ⟨78, _⟩ => ⟨S64x64, .f32⟩
  | .hbm, ⟨79, _⟩ => ⟨S64x64, .f32⟩
  | .hbm, ⟨80, _⟩ => ⟨S64x64, .f32⟩
  | .hbm, ⟨81, _⟩ => ⟨S_, .f32⟩
  | .hbm, ⟨82, _⟩ => ⟨S64x64, .f32⟩
  | .hbm, ⟨83, _⟩ => ⟨S64x64, .f32⟩
  | .hbm, ⟨84, _⟩ => ⟨S64x64, .i32⟩
  | .hbm, ⟨85, _⟩ => ⟨S64x64, .i32⟩
  | .hbm, ⟨86, _⟩ => ⟨S_, .i32⟩
  | .hbm, ⟨87, _⟩ => ⟨S64x64, .i32⟩
  | .hbm, ⟨88, _⟩ => ⟨S64x64, .i32⟩
  | .hbm, ⟨89, _⟩ => ⟨S64x64, .i1⟩
  | .hbm, ⟨90, _⟩ => ⟨S64x64, .f32⟩
  | .hbm, ⟨91, _⟩ => ⟨S64x64, .f32⟩
  | .hbm, ⟨92, _⟩ => ⟨S_, .f32⟩
  | .hbm, ⟨93, _⟩ => ⟨S64, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S64, .f32⟩
  | .hbm, ⟨98, _⟩ => ⟨S_, .f32⟩
  | .hbm, ⟨99, _⟩ => ⟨S64, .f32⟩
  | .hbm, ⟨100, _⟩ => ⟨S64, .i1⟩
  | .hbm, ⟨101, _⟩ => ⟨S_, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S64x1, .f32⟩
  | .hbm, ⟨106, _⟩ => ⟨S64x64, .f32⟩
  | .hbm, ⟨107, _⟩ => ⟨S64x64, .f32⟩
  | .hbm, ⟨108, _⟩ => ⟨S1x64, .f32⟩
  | .hbm, ⟨109, _⟩ => ⟨S64x64, .f32⟩
  | .hbm, ⟨110, _⟩ => ⟨S64x64, .f32⟩
  | .hbm, ⟨111, _⟩ => ⟨S64x32, .f32⟩
  | .hbm, ⟨112, _⟩ => ⟨S1x32, .f32⟩
  | .hbm, ⟨113, _⟩ => ⟨S64x32, .f32⟩
  | .hbm, ⟨114, _⟩ => ⟨S64x32, .f32⟩
  | .hbm, ⟨115, _⟩ => ⟨S64x32, .f32⟩
  | .hbm, ⟨116, _⟩ => ⟨S_, .f32⟩
  | .hbm, ⟨117, _⟩ => ⟨S64x32, .f32⟩
  | .hbm, ⟨118, _⟩ => ⟨S64x32, .f32⟩
  | _, _ => ⟨S64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_v14 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call2_cst : Ref sig .tc := ⟨.hbm, 46, rfl⟩
abbrev main_call2_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_call3_v0 : Ref sig .tc := ⟨.hbm, 62, rfl⟩
abbrev main_call3_cst : Ref sig .tc := ⟨.hbm, 63, rfl⟩
abbrev main_call3_v1 : Ref sig .tc := ⟨.hbm, 64, rfl⟩
abbrev main_v38 : Ref sig .tc := ⟨.hbm, 65, rfl⟩
abbrev main_cst_5 : Ref sig .tc := ⟨.hbm, 66, rfl⟩
abbrev main_call4_v0 : Ref sig .tc := ⟨.hbm, 67, rfl⟩
abbrev main_call4_v1 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call5_cst : Ref sig .tc := ⟨.hbm, 81, rfl⟩
abbrev main_call5_v0 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_6 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_7 : Ref sig .tc := ⟨.hbm, 92, rfl⟩
abbrev main_v59 : Ref sig .tc := ⟨.hbm, 93, rfl⟩
abbrev main_cst_8 : Ref sig .tc := ⟨.hbm, 94, rfl⟩
abbrev main_v60 : Ref sig .tc := ⟨.hbm, 95, rfl⟩
abbrev main_v61 : Ref sig .tc := ⟨.hbm, 96, rfl⟩
abbrev main_call6_v0 : Ref sig .tc := ⟨.hbm, 97, rfl⟩
abbrev main_call6_cst : Ref sig .tc := ⟨.hbm, 98, rfl⟩
abbrev main_call6_v1 : Ref sig .tc := ⟨.hbm, 99, rfl⟩
abbrev main_v62 : Ref sig .tc := ⟨.hbm, 100, rfl⟩
abbrev main_cst_9 : Ref sig .tc := ⟨.hbm, 101, rfl⟩
abbrev main_call7_v0 : Ref sig .tc := ⟨.hbm, 102, rfl⟩
abbrev main_call7_v1 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_call8_cst : Ref sig .tc := ⟨.hbm, 116, rfl⟩
abbrev main_call8_v0 : Ref sig .tc := ⟨.hbm, 117, rfl⟩
abbrev main_v75 : Ref sig .tc := ⟨.hbm, 118, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x64 : S_.BroadcastsInDim S64x64 (![] : Fin 0 → Fin S64x64.rank)
  reducesTo_S64x64_S64_d1 : S64x64.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  dot_S64x32_S32x16_S64x16_1_0_0_1_n_n_wf : DotDims.WF S64x32 S32x16 S64x16 [1] [0] [0] [1] [] []
  dot_S64x16_S16x64_S64x64_1_0_0_1_n_n_wf : DotDims.WF S64x16 S16x64 S64x64 [1] [0] [0] [1] [] []
  dot_S64x64_S64x64_S64x64_1_0_0_1_n_n_wf : DotDims.WF S64x64 S64x64 S64x64 [1] [0] [0] [1] [] []
  dot_S64x64_S64x32_S64x32_1_0_0_1_n_n_wf : DotDims.WF S64x64 S64x32 S64x32 [1] [0] [0] [1] [] []

variable [Facts₀]

def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf
def dot_S64x16_S16x64_S64x64_1_0_0_1_n_n : DotDims S64x16 S16x64 S64x64 where
  lhsContracting := [1]
  rhsContracting := [0]
  lhsNonContracting := [0]
  rhsNonContracting := [1]
  lhsBatch := []
  rhsBatch := []
  wf := dot_S64x16_S16x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

class Facts : Prop extends Facts₀ where

variable [Facts]
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibDenseLayers.lean ====
/-
  The dense pieces of a two-layer graph-convolution encoder and of its edge decoder, as index-by-index functions over
  the extended reals:

  * `project x w` — the feature projection `x · w`: entry `(n, f)` is `∑ k, x (n, k) · w (k, f)`;
  * `addRow a b` — the bias row `b` (shape `[1, N]`) added to every node's feature row;
  * `addRowClamp a b` — the same followed by the clamp at zero, `max (· ) 0`;
  * `rowDots u v` — one number per edge, the dot product `∑ k, u (e, k) · v (e, k)` of its two end points' features.

  The second half shows that the host operations a plain array program uses for these pieces — a `dot_general` with
  ordinary matrix-product dimension numbers, an addition of a twice-broadcast bias vector (clamped or not by a `maximum`
  with a broadcast zero), and a sum over the feature axis of an elementwise product — ARE these functions.  No law of
  arithmetic is needed beyond `0 + s = s`: the same sums and products appear on both sides, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«171218_g81252191306418_cont_sun_m_880_2_alg».proof.Proof.LibPlainDot

noncomputable section

namespace Cert.Layers

open Idealize.ShloMosaic Idealize.ShloMosaic.ValueIdx

variable {M K N : Nat}

/-- The projection `x · w` of `M` feature rows of length `K` to length `N`. -/
def project (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

/-- The bias row `b` added to every row of `a`. -/
def addRow (a : (⟨2, ![M, N]⟩ : Shape).Idx → EReal) (b : (⟨2, ![1, N]⟩ : Shape).Idx → EReal) :
    (⟨2, ![M, N]⟩ : Shape).Idx → EReal :=
  fun i => a i + b (ix2 (n1 := N) (0 : Fin 1) (i 1))

/-- The bias row added to every row, then the clamp at zero. -/
def addRowClamp (a : (⟨2, ![M, N]⟩ : Shape).Idx → EReal) (b : (⟨2, ![1, N]⟩ : Shape).Idx → EReal) :
    (⟨2, ![M, N]⟩ : Shape).Idx → EReal :=
  fun i => max (a i + b (ix2 (n1 := N) (0 : Fin 1) (i 1))) 0

/-- Row by row, the dot product of `u`'s row with `v`'s. -/
def rowDots (u v : (⟨2, ![M, K]⟩ : Shape).Idx → EReal) : (⟨1, ![M]⟩ : Shape).Idx → EReal :=
  fun i => ∑ k : Fin K, u (ix2 (n0 := M) (i 0) k) * v (ix2 (n0 := M) (i 0) k)

theorem project_apply (x : (⟨2, ![M, K]⟩ : Shape).Idx → EReal) (w : (⟨2, ![K, N]⟩ : Shape).Idx → EReal) (p : Fin M) (q : Fin N) :
    project x w (ix2 p q) = ∑ k : Fin K, x (ix2 p k) * w (ix2 k q) := rfl

/-! ## The host's operations are these functions -/

/-- A host `dot_general` whose dimension numbers are the ordinary matrix product's is the projection. -/
theorem dotGeneral_eq_project (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral d prec x w = project x w := by
  subst hd
  funext i
  obtain ⟨p, q, rfl⟩ : ∃ (p : Fin M) (q : Fin N), i = ix2 p q := ⟨i 0, i 1, eq_ix2 i⟩
  exact Cert.Lib.dotGeneral_plain_apply prec _ x w p q

/-- A bias vector broadcast to a row and then over all rows, read at `(p, q)`, is its entry `q`; so is the vector
    reshaped to a row and read at `(0, q)`. -/
theorem bias_bcast_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (p : Fin M) (q : Fin N) :
    broadcastInDim ⟨2, ![M, N]⟩ ![0, 1] h2 (broadcastInDim ⟨2, ![1, N]⟩ ![1] h1 b) (ix2 p q)
      = shapeCast ⟨2, ![1, N]⟩ b hc (ix2 (0 : Fin 1) q) := by
  rw [shapeCast_a_1a_apply b hc (0 : Fin 1) q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- Adding the twice-broadcast bias vector is adding the bias row. -/
theorem addf_bias_eq_addRow (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 b))
      = addRow a (shapeCast ⟨2, ![1, N]⟩ b hc) := by
  funext i
  obtain ⟨p, q, rfl⟩ : ∃ (p : Fin M) (q : Fin N), i = ix2 p q := ⟨i 0, i 1, eq_ix2 i⟩
  show a (ix2 p q) + _ = a (ix2 p q) + shapeCast ⟨2, ![1, N]⟩ b hc (ix2 (0 : Fin 1) q)
  rw [bias_bcast_apply b h1 h2 hc p q]

/-- The clamp by a `maximum` with the broadcast zero constant of the biased features is `addRowClamp`. -/
theorem maximumf_bias_eq_addRowClamp (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = addRowClamp a (shapeCast ⟨2, ![1, N]⟩ b hc) := by
  rw [addf_bias_eq_addRow a b h1 h2 hc]
  funext i
  show max (addRow a _ i) (broadcastInDim ⟨2, ![M, N]⟩ ![] h0 (constant (F := Ideal) ⟨0, ![]⟩ .f32 0x00000000#32) i) = max (addRow a _ i) 0
  rw [broadcastInDim_apply ![] h0 _ i ix0 (fun a => a.elim0)]
  show max _ (Ideal.ofBits .f32 0x00000000#32) = _
  rw [Ideal.ofBits_zero_f32]

end Cert.Layers

end
-- ==== Proof.LibGuardedRsqrt.lean ====
/-
  One entry of `D^(-1/2)` for a degree `d` that may fail to be positive, in its two usual spellings, over the extended reals.

  * Guard first: `if 0 < d then 1/√d else 0` (compare the degree with zero, take the reciprocal square root where it is positive).
  * Compute first: take `d ^ (-1/2)`, then replace an infinite result by `0`.

  They agree at every extended real `d`.  For a positive real both are `1/√d`, since `d ^ (-1/2) = (d ^ (1/2))⁻¹ = (√d)⁻¹`.
  At `d = 0` the real power `0 ^ (-1/2)` is `0` (the convention for a zero base and a non-zero exponent), and for a negative
  real `d` the real power is `exp (-(1/2) · log |d|) · cos (-(π/2))`, which is `0` because the cosine vanishes; the guarded
  form is `0` in both cases.  At `+∞` the power with a negative exponent is `0` and the reciprocal square root is `0`; at
  `-∞` the power is `-∞`, whose absolute value is infinite, so it is replaced by `0`, which is also what the guard gives.
-/
import Idealize.ShloMosaic.PureOps.Ideal
import Idealize.ShloMosaic.PureOps.Ideal.Laws

noncomputable section

namespace Cert.Lib

open Idealize.ShloMosaic

/-- The binary32 word `0xBF000000` is `-1/2`: sign set, exponent field 126, zero fraction, so `-(2^23) · 2^(126 - 127 - 23)`. -/
theorem ofBits_neg_half_f32 : Ideal.ofBits .f32 0xBF000000#32 = ((-(1 / 2) : ℝ) : EReal) := by
  simp [Ideal.ofBits, Ideal.ieee]
  rw [← EReal.coe_mul]
  congr 1
  norm_num

/-- The binary32 word `0x7F800000` (all-ones exponent, zero fraction, sign clear) is `+∞`. -/
theorem ofBits_inf_f32 : Ideal.ofBits .f32 0x7F800000#32 = (⊤ : EReal) := by
  simp [Ideal.ofBits, Ideal.ieee]

/-- A choice made on the bit of an equality test is the choice made on the equality. -/
theorem select_cmp_oeq {α : Type} (x y : EReal) (a b : α) :
    Scalar.select (Ideal.cmp .oeq x y) a b = if x = y then a else b := by
  unfold Scalar.select Ideal.cmp
  by_cases h : x = y <;> simp [h]

/-- A choice made on the bit of a strict comparison `x > y` is the choice made on `y < x`. -/
theorem select_cmp_ogt {α : Type} (x y : EReal) (a b : α) :
    Scalar.select (Ideal.cmp .ogt x y) a b = if y < x then a else b := by
  unfold Scalar.select Ideal.cmp
  by_cases h : y < x <;> simp [h]

/-- For a positive real, `r ^ (-1/2) = (√r)⁻¹`. -/
theorem rpow_neg_half_of_pos {r : ℝ} (hr : 0 < r) : Real.rpow r (-(1 / 2)) = (Real.sqrt r)⁻¹ := by
  show r ^ (-(1 / 2) : ℝ) = _
  rw [Real.rpow_neg hr.le, Real.sqrt_eq_rpow]

/-- For a negative real the real power `r ^ (-1/2)` is `exp (log r · (-1/2)) · cos (-(π/2)) = 0`. -/
theorem rpow_neg_half_of_neg {r : ℝ} (hr : r < 0) : Real.rpow r (-(1 / 2)) = 0 := by
  show r ^ (-(1 / 2) : ℝ) = _
  rw [Real.rpow_def_of_neg hr]
  have : Real.cos (-(1 / 2) * Real.pi) = 0 := by
    rw [show -(1 / 2) * Real.pi = -(Real.pi / 2) by ring, Real.cos_neg, Real.cos_pi_div_two]
  rw [this, mul_zero]

/-- The entry of `D^(-1/2)` for degree `d`: the reciprocal square root where the degree is positive, zero elsewhere. -/
def guardedRsqrt (d : EReal) : EReal := if 0 < d then Ideal.rsqrt d else 0

/-- "Compute `d ^ (-1/2)`, then replace an infinite value by zero" is the guarded reciprocal square root, at every extended
    real `d`: the case analysis of this file's header. -/
theorem guarded_pow_eq (d : EReal) :
    (if max (Ideal.pow d ((-(1 / 2) : ℝ) : EReal)) (-(Ideal.pow d ((-(1 / 2) : ℝ) : EReal))) = ⊤ then (0 : EReal)
      else Ideal.pow d ((-(1 / 2) : ℝ) : EReal))
      = guardedRsqrt d := by
  unfold guardedRsqrt
  induction d using EReal.rec with
  | bot => simp
  | top => simp
  | coe r =>
    rw [Ideal.pow_coe_coe, Ideal.rsqrt_coe]
    have hne : ¬ (max ((Real.rpow r (-(1 / 2)) : ℝ) : EReal) (-((Real.rpow r (-(1 / 2)) : ℝ) : EReal)) = ⊤) := by
      rw [← EReal.coe_neg]
      rcases max_choice ((Real.rpow r (-(1 / 2)) : ℝ) : EReal) ((-(Real.rpow r (-(1 / 2))) : ℝ) : EReal) with h | h <;>
        rw [h] <;> exact EReal.coe_ne_top _
    rw [if_neg hne]
    rcases lt_trichotomy r 0 with hr | rfl | hr
    · rw [if_neg (by rw [EReal.coe_pos]; exact not_lt.mpr hr.le), rpow_neg_half_of_neg hr, EReal.coe_zero]
    · rw [if_neg (by rw [EReal.coe_pos]; exact lt_irrefl _)]
      show ((((0 : ℝ) ^ (-(1 / 2) : ℝ) : ℝ)) : EReal) = 0
      rw [Real.zero_rpow (by norm_num), EReal.coe_zero]
    · rw [if_pos (by rw [EReal.coe_pos]; exact hr), if_neg (not_lt.mpr hr.le), if_neg hr.ne', rpow_neg_half_of_pos hr]

/-- The same with the three constants as binary32 words and the two choices as selections on comparison bits: the power
    with exponent word `-1/2`, its absolute value `max p (-p)` tested for equality with the word `+∞`, zero chosen there. -/
theorem select_isinf_pow_eq (d : EReal) :
    Scalar.select (Ideal.cmp .oeq (max (Ideal.pow d (Ideal.ofBits .f32 0xBF000000#32)) (-(Ideal.pow d (Ideal.ofBits .f32 0xBF000000#32))))
        (Ideal.ofBits .f32 0x7F800000#32)) (Ideal.ofBits .f32 0x00000000#32) (Ideal.pow d (Ideal.ofBits .f32 0xBF000000#32))
      = guardedRsqrt d := by
  rw [ofBits_neg_half_f32, ofBits_inf_f32, Ideal.ofBits_zero_f32, select_cmp_oeq]
  exact guarded_pow_eq d

/-- The guard-first spelling as a selection on the bit of `d > 0`, the zeros as binary32 words. -/
theorem select_pos_rsqrt_eq (d : EReal) :
    Scalar.select (Ideal.cmp .ogt d (Ideal.ofBits .f32 0x00000000#32)) (Ideal.rsqrt d) (Ideal.ofBits .f32 0x00000000#32)
      = guardedRsqrt d := by
  rw [Ideal.ofBits_zero_f32, select_cmp_ogt]
  rfl

end Cert.Lib

end
-- ==== Proof.GcnSpec.lean ====
/-
  A graph-convolution network on a dense graph, as index-by-index functions over the extended reals.

  For an `n × n` adjacency matrix `adj`:
  * `withLoops adj` is `A = adj + I`: a self-loop added at every node;
  * `degree A p = ∑ₖ A (p, k)` is node `p`'s row sum, and `invSqrtDeg A p` is the entry of `D^(-1/2)` for it: `1/√(degree)`
    where the degree is positive and `0` elsewhere;
  * `propagate A z` is the clamped symmetric-normalised propagation `max (D^(-1/2) A D^(-1/2) z) 0`, entry `(p, q)` being
    `max (∑ₖ (s p · A (p, k)) · (s k · z (k, q))) 0` with `s = invSqrtDeg A` (the row factor grouped with the adjacency entry, the
    column factor with the propagated feature);
  * `layer A h w b = propagate A (h · w + b)` is one convolution layer, the bias row `b` added to every node's features;
  * `net` is a feature projection `x · wp + bp` followed by three layers over the one graph.

  `propagate_assoc` regroups the products of a propagation's summand: `((s p · A (p, k)) · s k) · z (k, q)`, the form obtained when
  the normalised matrix `D^(-1/2) A D^(-1/2)` is formed first and then multiplied with `z`, is the same number — multiplication
  of extended reals is associative, with no finiteness needed.
-/
import Idealize.ShloMosaic.PureOps.Ideal
import Idealize.ShloMosaic.Lib.ValueIdx
import proofs.«171218_g81252191306418_cont_sun_m_880_2_alg».proof.Proof.LibDenseLayers
import proofs.«171218_g81252191306418_cont_sun_m_880_2_alg».proof.Proof.LibGuardedRsqrt

noncomputable section

namespace Cert.Gcn

open Idealize.ShloMosaic Idealize.ShloMosaic.ValueIdx Cert.Layers Cert.Lib

variable {n c f : Nat}

/-- Entry `(p, q)` of the identity matrix. -/
def diagEntry (p q : Fin n) : EReal := if p = q then 1 else 0

/-- The adjacency matrix with a self-loop at every node: `adj + I`. -/
def withLoops (adj : (⟨2, ![n, n]⟩ : Shape).Idx → EReal) : (⟨2, ![n, n]⟩ : Shape).Idx → EReal :=
  fun i => adj i + diagEntry (n := n) (i 0) (i 1)

theorem withLoops_apply (adj : (⟨2, ![n, n]⟩ : Shape).Idx → EReal) (p q : Fin n) :
    withLoops adj (ix2 p q) = adj (ix2 p q) + if p = q then 1 else 0 := rfl

/-- Node `p`'s degree: the sum of row `p`. -/
def degree (a : (⟨2, ![n, n]⟩ : Shape).Idx → EReal) (p : Fin n) : EReal := ∑ k : Fin n, a (ix2 p k)

/-- The entry of `D^(-1/2)` for node `p`: `1/√(degree)` where the degree is positive, `0` elsewhere. -/
def invSqrtDeg (a : (⟨2, ![n, n]⟩ : Shape).Idx → EReal) (p : Fin n) : EReal := guardedRsqrt (degree a p)

/-- The clamped normalised propagation `max (D^(-1/2) A D^(-1/2) z) 0`. -/
def propagate (a : (⟨2, ![n, n]⟩ : Shape).Idx → EReal) (z : (⟨2, ![n, c]⟩ : Shape).Idx → EReal) :
    (⟨2, ![n, c]⟩ : Shape).Idx → EReal :=
  fun i => max (∑ k : Fin n, (invSqrtDeg a (i 0) * a (ix2 (n0 := n) (i 0) k)) * (invSqrtDeg a k * z (ix2 (n1 := c) k (i 1)))) 0

theorem propagate_apply (a : (⟨2, ![n, n]⟩ : Shape).Idx → EReal) (z : (⟨2, ![n, c]⟩ : Shape).Idx → EReal) (p : Fin n) (q : Fin c) :
    propagate a z (ix2 p q)
      = max (∑ k : Fin n, (invSqrtDeg a p * a (ix2 p k)) * (invSqrtDeg a k * z (ix2 k q))) 0 := rfl

/-- The same entry with the normalised matrix formed first: only the grouping of each product differs. -/
theorem propagate_assoc (a : (⟨2, ![n, n]⟩ : Shape).Idx → EReal) (z : (⟨2, ![n, c]⟩ : Shape).Idx → EReal) (p : Fin n) (q : Fin c) :
    max (∑ k : Fin n, ((invSqrtDeg a p * a (ix2 p k)) * invSqrtDeg a k) * z (ix2 k q)) 0 = propagate a z (ix2 p q) := by
  rw [propagate_apply]
  exact congrArg (max · 0) (Finset.sum_congr rfl fun k _ => mul_assoc _ _ _)

/-- One convolution layer: the features projected by `w`, the bias row added, then propagated over the graph and clamped. -/
def layer (a : (⟨2, ![n, n]⟩ : Shape).Idx → EReal) (h : (⟨2, ![n, f]⟩ : Shape).Idx → EReal)
    (w : (⟨2, ![f, c]⟩ : Shape).Idx → EReal) (b : (⟨2, ![1, c]⟩ : Shape).Idx → EReal) : (⟨2, ![n, c]⟩ : Shape).Idx → EReal :=
  propagate a (addRow (project h w) b)

/-- The network: the input features projected (`x · wp + bp`), then three convolution layers over `adj + I`. -/
def net {f0 f1 f2 f3 f4 : Nat} (x : (⟨2, ![n, f0]⟩ : Shape).Idx → EReal) (adj : (⟨2, ![n, n]⟩ : Shape).Idx → EReal)
    (wp : (⟨2, ![f0, f1]⟩ : Shape).Idx → EReal) (bp : (⟨2, ![1, f1]⟩ : Shape).Idx → EReal)
    (w1 : (⟨2, ![f1, f2]⟩ : Shape).Idx → EReal) (b1 : (⟨2, ![1, f2]⟩ : Shape).Idx → EReal)
    (w2 : (⟨2, ![f2, f3]⟩ : Shape).Idx → EReal) (b2 : (⟨2, ![1, f3]⟩ : Shape).Idx → EReal)
    (w3 : (⟨2, ![f3, f4]⟩ : Shape).Idx → EReal) (b3 : (⟨2, ![1, f4]⟩ : Shape).Idx → EReal) : (⟨2, ![n, f4]⟩ : Shape).Idx → EReal :=
  layer (withLoops adj) (layer (withLoops adj) (layer (withLoops adj) (addRow (project x wp) bp) w1 b1) w2 b2) w3 b3

end Cert.Gcn

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibDiagonal.lean ====
/-
  The identity matrix as array programs build it, read at an entry.

  Both a kernel and a host program make the `n × n` identity by comparing each entry's row number with its column number
  (two iotas, one along each axis, the row one with a zero offset added) and converting the resulting bit to a float: the
  kernel widens the bit to a 32-bit integer and converts that as a signed number, the host converts the bit as an unsigned
  one.  Row and column numbers below `2^32` are distinct as 32-bit words exactly when they are distinct numbers, so the bit
  is `1` on the diagonal and `0` off it, and both conversions give `1` and `0`: entry `(p, q)` is `if p = q then 1 else 0`.
-/
import Idealize.ShloMosaic.PureOps.Ideal
import Idealize.ShloMosaic.Lib.ValueIdx
import Idealize.ShloMosaic.Lib.Pipeline.Value
import Idealize.ShloMosaic.Lib.IdealHost

noncomputable section

namespace Cert.Lib

open Idealize.ShloMosaic Idealize.ShloMosaic.ValueIdx

/-- Numbers below `2^32` are equal as 32-bit words exactly when they are equal. -/
theorem ofNat32_eq_iff {p q : Nat} (hp : p < 2 ^ 32) (hq : q < 2 ^ 32) :
    BitVec.ofNat 32 p = BitVec.ofNat 32 q ↔ p = q := by
  constructor
  · intro h
    have h' := congrArg BitVec.toNat h
    rw [BitVec.toNat_ofNat, BitVec.toNat_ofNat, Nat.mod_eq_of_lt hp, Nat.mod_eq_of_lt hq] at h'
    exact h'
  · rintro rfl; rfl

/-- The comparison bit of "row number (plus a zero offset) equals column number". -/
theorem diag_bit {n : Nat} (hn : n ≤ 2 ^ 32) (p q : Fin n) :
    IntOp.cmpi .eq (IntOp.addi (BitVec.ofNat 32 p.val) 0#32) (BitVec.ofNat 32 q.val) = if p = q then 1#1 else 0#1 := by
  have hp : p.val < 2 ^ 32 := lt_of_lt_of_le p.isLt hn
  have hq : q.val < 2 ^ 32 := lt_of_lt_of_le q.isLt hn
  unfold IntOp.cmpi IntOp.addi
  by_cases h : p = q
  · subst h; simp
  · have hne : ¬ (BitVec.ofNat 32 p.val = BitVec.ofNat 32 q.val) := fun e => h (Fin.ext ((ofNat32_eq_iff hp hq).mp e))
    have hb : (BitVec.ofNat 32 p.val == BitVec.ofNat 32 q.val) = false := beq_eq_false_iff_ne.mpr hne
    simp [h, hb]

/-- The host's spelling: the comparison bit converted as an unsigned number. -/
theorem host_diag_apply {n : Nat} (hn : n ≤ 2 ^ 32) (h0 : (⟨0, ![]⟩ : Shape).BroadcastsInDim ⟨2, ![n, n]⟩ ![]) (p q : Fin n) :
    uitofp (F := Ideal) .f32 (cmpi .eq (addi (iotaInDim ⟨2, ![n, n]⟩ 32 0)
        (broadcastInDim ⟨2, ![n, n]⟩ ![] h0 (constantI ⟨0, ![]⟩ 32 0#32))) (iotaInDim ⟨2, ![n, n]⟩ 32 1)) (ix2 p q)
      = if p = q then 1 else 0 := by
  show (((IntOp.cmpi .eq (IntOp.addi (BitVec.ofNat 32 p.val)
      (broadcastInDim ⟨2, ![n, n]⟩ ![] h0 (constantI ⟨0, ![]⟩ 32 0#32) (ix2 p q))) (BitVec.ofNat 32 q.val)).toNat : ℝ) : EReal) = _
  rw [broadcastInDim_apply ![] h0 _ (ix2 p q) ix0 (fun a => a.elim0)]
  show (((IntOp.cmpi .eq (IntOp.addi (BitVec.ofNat 32 p.val) 0#32) (BitVec.ofNat 32 q.val)).toNat : ℝ) : EReal) = _
  rw [diag_bit hn p q]
  by_cases h : p = q <;> simp [h]

/-- The kernel's spelling: the comparison bit widened to 32 bits and converted as a signed number. -/
theorem kernel_diag_apply {n : Nat} (hn : n ≤ 2 ^ 32) (κ : Kind) (h0 : (⟨2, ![n, n]⟩ : Shape).Iotas κ 32 [0])
    (h1 : (⟨2, ![n, n]⟩ : Shape).Iotas κ 32 [1]) (hlt : 1 < 32) (p q : Fin n) :
    sitofp (F := Ideal) .f32 (extui 32 (cmpi .eq (addi (iota κ ⟨2, ![n, n]⟩ 32 [0] h0) (broadcast ⟨2, ![n, n]⟩ (0#32 : BitVec 32)))
        (iota κ ⟨2, ![n, n]⟩ 32 [1] h1)) hlt) (ix2 p q)
      = if p = q then 1 else 0 := by
  show ((((IntOp.cmpi .eq (IntOp.addi (iota κ ⟨2, ![n, n]⟩ 32 [0] h0 (ix2 p q)) 0#32)
      (iota κ ⟨2, ![n, n]⟩ 32 [1] h1 (ix2 p q))).setWidth 32).toInt : ℝ) : EReal) = _
  rw [iota_single_apply κ _ 32 0 h0, iota_single_apply κ _ 32 1 h1]
  show ((((IntOp.cmpi .eq (IntOp.addi (BitVec.ofNat 32 p.val) 0#32) (BitVec.ofNat 32 q.val)).setWidth 32).toInt : ℝ) : EReal) = _
  rw [diag_bit hn p q]
  by_cases h : p = q <;> simp [h]

end Cert.Lib

end
-- ==== Proof.GcnKernelForms.lean ====
/-
  The pieces of the normalised propagation in the spelling a fused kernel uses, each identified with the
  index-by-index function of `Cert.Gcn`:

  * the adjacency plus the identity built from two iotas is `withLoops`;
  * the row sums kept as a column `[n, 1]`, compared with zero, and the reciprocal square root selected where positive, is the
    column of `invSqrtDeg`;
  * that column broadcast over the lanes and multiplied into the adjacency is the row-scaled matrix `s p · A (p, k)`;
  * a matrix product of the row-scaled adjacency with the column-scaled features `s k · z (k, q)`, into a zero accumulator,
    clamped at zero, is `propagate`: the very sums and products of its definition, in the same grouping.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«171218_g81252191306418_cont_sun_m_880_2_alg».proof.Proof.GcnSpec
import proofs.«171218_g81252191306418_cont_sun_m_880_2_alg».proof.Proof.LibKeepdims
import proofs.«171218_g81252191306418_cont_sun_m_880_2_alg».proof.Proof.LibPlainDot
import proofs.«171218_g81252191306418_cont_sun_m_880_2_alg».proof.Proof.LibDiagonal

noncomputable section

namespace Cert.Gcn

open Idealize.ShloMosaic Idealize.ShloMosaic.ValueIdx Cert.Layers Cert.Lib Cert.LibKeepdims

variable {n c : Nat}

/-- The adjacency plus the identity made from a row iota and a column iota. -/
theorem kernel_withLoops (hn : n ≤ 2 ^ 32) (adj : FVec Ideal ⟨2, ![n, n]⟩ .f32)
    (h0 : (⟨2, ![n, n]⟩ : Shape).Iotas .tc 32 [0]) (h1 : (⟨2, ![n, n]⟩ : Shape).Iotas .tc 32 [1]) (hlt : 1 < 32) :
    addf adj (sitofp .f32 (extui 32 (cmpi .eq (addi (iota .tc ⟨2, ![n, n]⟩ 32 [0] h0) (broadcast ⟨2, ![n, n]⟩ (0#32 : BitVec 32)))
        (iota .tc ⟨2, ![n, n]⟩ 32 [1] h1)) hlt))
      = withLoops adj := by
  funext i
  obtain ⟨p, q, rfl⟩ : ∃ (p : Fin n) (q : Fin n), i = ix2 p q := ⟨i 0, i 1, eq_ix2 i⟩
  show adj (ix2 p q) + _ = adj (ix2 p q) + if p = q then 1 else 0
  rw [kernel_diag_apply hn .tc h0 h1 hlt p q]

/-- The row sums of `a`, kept as a column: entry `(p, ·)` is node `p`'s degree. -/
theorem kernel_degree_col (a : FVec Ideal ⟨2, ![n, n]⟩ .f32) (h : (⟨2, ![n, n]⟩ : Shape).Reduces [1] ⟨1, ![n]⟩)
    (hφ : FKind.Formats .f32) (hacc : (0x00000000#32 : BitVec 32) = FKind.add.neutral .f32 hφ)
    (hc : (⟨1, ![n]⟩ : Shape).ShapeCasts ⟨2, ![n, 1]⟩) (p : Fin n) (u : Fin 1) :
    shapeCast ⟨2, ![n, 1]⟩ (multiReduction .add [1] ⟨1, ![n]⟩ a 0x00000000#32 h hφ hacc) hc (ix2 p u) = degree a p := by
  rw [shapeCast_a_a1_apply _ hc p u]
  refine (Ideal.multiReduction_add_single a 0x00000000#32 h hφ hacc (ix1 p)).trans ?_
  exact Finset.sum_congr rfl fun k _ => congrArg a (funext fun d => Fin.ext (by match d with | ⟨0, _⟩ => rfl | ⟨1, _⟩ => rfl))

/-- The column of `D^(-1/2)`: the reciprocal square root of the degree column selected where the degree is positive. -/
theorem kernel_invSqrtDeg_col (a : FVec Ideal ⟨2, ![n, n]⟩ .f32) (h : (⟨2, ![n, n]⟩ : Shape).Reduces [1] ⟨1, ![n]⟩)
    (hφ : FKind.Formats .f32) (hacc : (0x00000000#32 : BitVec 32) = FKind.add.neutral .f32 hφ)
    (hc : (⟨1, ![n]⟩ : Shape).ShapeCasts ⟨2, ![n, 1]⟩) (p : Fin n) (u : Fin 1) :
    select (cmpf .ogt (shapeCast ⟨2, ![n, 1]⟩ (multiReduction .add [1] ⟨1, ![n]⟩ a 0x00000000#32 h hφ hacc) hc)
          (broadcast ⟨2, ![n, 1]⟩ (Scalar.ofBits (F := Ideal) .f32 0x00000000#32)))
        (rsqrt (shapeCast ⟨2, ![n, 1]⟩ (multiReduction .add [1] ⟨1, ![n]⟩ a 0x00000000#32 h hφ hacc) hc))
        (broadcast ⟨2, ![n, 1]⟩ (Scalar.ofBits (F := Ideal) .f32 0x00000000#32)) (ix2 p u)
      = invSqrtDeg a p := by
  show Scalar.select (Ideal.cmp .ogt (shapeCast ⟨2, ![n, 1]⟩ (multiReduction .add [1] ⟨1, ![n]⟩ a 0x00000000#32 h hφ hacc) hc (ix2 p u))
      (Ideal.ofBits .f32 0x00000000#32))
      (Ideal.rsqrt (shapeCast ⟨2, ![n, 1]⟩ (multiReduction .add [1] ⟨1, ![n]⟩ a 0x00000000#32 h hφ hacc) hc (ix2 p u)))
      (Ideal.ofBits .f32 0x00000000#32) = _
  rw [kernel_degree_col a h hφ hacc hc p u]
  exact select_pos_rsqrt_eq _

/-- The adjacency with each row scaled by its node's `D^(-1/2)` entry, the column broadcast over the lanes. -/
theorem kernel_rowScaled (a : FVec Ideal ⟨2, ![n, n]⟩ .f32) (dcol : FVec Ideal ⟨2, ![n, 1]⟩ .f32)
    (hcol : ∀ p : Fin n, dcol (ix2 p (0 : Fin 1)) = invSqrtDeg a p)
    (hb : (⟨2, ![n, 1]⟩ : Shape).Broadcasts ⟨2, ![n, n]⟩) (p k : Fin n) :
    mulf (broadcastTo ⟨2, ![n, n]⟩ dcol hb) a (ix2 p k) = invSqrtDeg a p * a (ix2 p k) := by
  show broadcastTo ⟨2, ![n, n]⟩ dcol hb (ix2 p k) * a (ix2 p k) = _
  rw [broadcastTo_a1_ab_apply dcol hb p k, hcol p]

/-- The propagation: the row-scaled adjacency times the column-scaled features into a zero accumulator, clamped at zero. -/
theorem kernel_propagate (a : (⟨2, ![n, n]⟩ : Shape).Idx → EReal) (da : FVec Ideal ⟨2, ![n, n]⟩ .f32)
    (hda : ∀ p k : Fin n, da (ix2 p k) = invSqrtDeg a p * a (ix2 p k))
    (dcol : FVec Ideal ⟨2, ![n, 1]⟩ .f32) (hcol : ∀ p : Fin n, dcol (ix2 p (0 : Fin 1)) = invSqrtDeg a p)
    (d : DotDims ⟨2, ![n, n]⟩ ⟨2, ![n, c]⟩ ⟨2, ![n, c]⟩) (hd : d = DotDims.plain n n c) (prec : Option ContractPrecision)
    (z : FVec Ideal ⟨2, ![n, c]⟩ .f32) (hb : (⟨2, ![n, 1]⟩ : Shape).Broadcasts ⟨2, ![n, c]⟩) :
    maximumf (matmul d prec da (mulf (broadcastTo ⟨2, ![n, c]⟩ dcol hb) z) (constant ⟨2, ![n, c]⟩ .f32 0x00000000#32))
        (broadcast ⟨2, ![n, c]⟩ (Scalar.ofBits (F := Ideal) .f32 0x00000000#32))
      = propagate a z := by
  subst hd
  funext i
  obtain ⟨p, q, rfl⟩ : ∃ (p : Fin n) (q : Fin c), i = ix2 p q := ⟨i 0, i 1, eq_ix2 i⟩
  show max (FloatOps.matmul (DotDims.plain n n c) prec da (mulf (broadcastTo ⟨2, ![n, c]⟩ dcol hb) z)
      (constant ⟨2, ![n, c]⟩ .f32 0x00000000#32) (ix2 p q)) (Ideal.ofBits .f32 0x00000000#32) = _
  rw [matmul_plain_zero_apply prec da _ p q, Ideal.ofBits_zero_f32, propagate_apply]
  refine congrArg (max · 0) (Finset.sum_congr rfl fun k _ => ?_)
  rw [hda p k]
  show _ * (broadcastTo ⟨2, ![n, c]⟩ dcol hb (ix2 k q) * z (ix2 k q)) = _
  rw [broadcastTo_a1_ab_apply dcol hb k q, hcol k]

end Cert.Gcn

end
-- ==== Proof.LibKernelDense.lean ====
/-
  A kernel's dense layer read as a whole-array function over the extended reals.

  Inside a kernel a dense layer is a `tpu.matmul` of the activations with the weights into a zero accumulator, plus
  the bias row `[1, N]` broadcast over the `M` rows, optionally clamped by a `maximum` with a splat zero.  With
  ordinary matrix-product dimension numbers that is `Cert.Layers.addRow (project x w) b`, respectively
  `addRowClamp (project x w) b`: the same sums and products, `0 + s = s` being the only law used (inside the
  matmul's reading).
-/
import Idealize.ShloMosaic.PureOps.Ideal
import Idealize.ShloMosaic.PureOps.Ideal.Laws
import Idealize.ShloMosaic.Lib.ValueIdx
import Idealize.ShloMosaic.Lib.ValueLayout
import proofs.«171218_g81252191306418_cont_sun_m_880_2_alg».proof.Proof.LibPlainDot
import proofs.«171218_g81252191306418_cont_sun_m_880_2_alg».proof.Proof.LibDenseLayers

noncomputable section

namespace Cert.Lib

open Idealize.ShloMosaic Idealize.ShloMosaic.ValueIdx Cert.Layers

variable {M K N : Nat}

/-- A `tpu.matmul` into the zero accumulator plus the broadcast bias row is the projection plus the bias row. -/
theorem matmul_bias_eq_addRow {φ₁ φ₂ : FTy} (d : DotDims ⟨2, ![M, K]⟩ ⟨2, ![K, N]⟩ ⟨2, ![M, N]⟩) (hd : d = DotDims.plain M K N)
    (prec : Option ContractPrecision) (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) :
    addf (matmul d prec x w (constant ⟨2, ![M, N]⟩ .f32 0x00000000#32)) (broadcastTo ⟨2, ![M, N]⟩ b hb)
      = addRow (project x w) b := by
  subst hd
  funext i
  obtain ⟨p, q, rfl⟩ : ∃ (p : Fin M) (q : Fin N), i = ix2 p q := ⟨i 0, i 1, eq_ix2 i⟩
  show FloatOps.matmul (DotDims.plain M K N) prec x w (constant ⟨2, ![M, N]⟩ .f32 0x00000000#32) (ix2 p q)
      + broadcastTo ⟨2, ![M, N]⟩ b hb (ix2 p q) = (∑ k : Fin K, x (ix2 p k) * w (ix2 k q)) + b (ix2 (0 : Fin 1) q)
  rw [matmul_plain_zero_apply prec x w p q, broadcastTo_1b_ab_apply b hb p q]

/-- The same followed by the clamp at a splat zero is the projection plus the bias row, clamped at zero. -/
theorem matmul_bias_clamp_eq_addRowClamp {φ₁ φ₂ : FTy} (d : DotDims ⟨2, ![M, K]⟩ ⟨2, ![K, N]⟩ ⟨2, ![M, N]⟩)
    (hd : d = DotDims.plain M K N) (prec : Option ContractPrecision) (x : FVec Ideal ⟨2, ![M, K]⟩ φ₁)
    (w : FVec Ideal ⟨2, ![K, N]⟩ φ₂) (b : FVec Ideal ⟨2, ![1, N]⟩ .f32)
    (hb : (⟨2, ![1, N]⟩ : Shape).Broadcasts ⟨2, ![M, N]⟩) :
    maximumf (addf (matmul d prec x w (constant ⟨2, ![M, N]⟩ .f32 0x00000000#32)) (broadcastTo ⟨2, ![M, N]⟩ b hb))
        (broadcast ⟨2, ![M, N]⟩ (Scalar.ofBits (F := Ideal) .f32 0x00000000#32))
      = addRowClamp (project x w) b := by
  rw [matmul_bias_eq_addRow d hd prec x w b hb]
  funext i
  show max (addRow (project x w) b i) (Ideal.ofBits .f32 0x00000000#32) = max (addRow (project x w) b i) 0
  rw [Ideal.ofBits_zero_f32]

end Cert.Lib

end
-- ==== Proof.KernelValue.lean ====
/-
  The kernel body computes `Cert.Gcn.net` of its loaded blocks.

  The body forms `A = adj + I`, the column of `D^(-1/2)` and the row-scaled matrix `s p · A (p, k)` once, and uses them in all
  three layers: each layer is a matrix product with the weights into a zero accumulator, the bias row `[1, N]` broadcast over
  the nodes, the result scaled row by row with the `D^(-1/2)` column, multiplied from the left with the row-scaled matrix into
  a zero accumulator, and clamped at zero.  That is `layer A h w b = propagate A (h · w + b)` with exactly the grouping of
  `propagate`'s definition, so no law of arithmetic is needed beyond `0 + s = s` inside the matrix products.
-/
import proofs.«171218_g81252191306418_cont_sun_m_880_2_alg».proof.Proof.Gen.KernelIdeal.Skeleton
import proofs.«171218_g81252191306418_cont_sun_m_880_2_alg».proof.Proof.GcnKernelForms
import proofs.«171218_g81252191306418_cont_sun_m_880_2_alg».proof.Proof.LibKernelDense

noncomputable section

namespace Cert.KernelIdeal.KValue

open Cert.KernelIdeal Cert.KernelIdeal.Gen
open Idealize.ShloMosaic Idealize.ShloMosaic.ValueIdx Cert.Layers Cert.Lib Cert.Gcn

/-- The adjacency plus the identity. -/
theorem loops_eq (adj : Vec Ideal S64x64 .f32) : k0_pay2 (F := Ideal) adj = withLoops adj := by
  unfold k0_pay2
  exact kernel_withLoops (n := 64) (by norm_num) adj _ _ _

/-- The column of `D^(-1/2)`. -/
theorem dinv_apply (adj : Vec Ideal S64x64 .f32) (p : Fin 64) (u : Fin 1) :
    k0_pay3 (F := Ideal) adj (ix2 p u) = invSqrtDeg (withLoops adj) p := by
  unfold k0_pay3
  refine (kernel_invSqrtDeg_col (k0_pay2 (F := Ideal) adj) _ _ _ _ p u).trans ?_
  rw [loops_eq]

/-- The adjacency with its rows scaled by `D^(-1/2)`. -/
theorem rowScaled_apply (adj : Vec Ideal S64x64 .f32) (p k : Fin 64) :
    k0_pay4 (F := Ideal) adj (ix2 p k) = invSqrtDeg (withLoops adj) p * withLoops adj (ix2 p k) := by
  unfold k0_pay4
  refine (kernel_rowScaled (k0_pay2 (F := Ideal) adj) (k0_pay3 (F := Ideal) adj)
    (fun p => (dinv_apply adj p 0).trans (by rw [loops_eq])) _ p k).trans ?_
  rw [loops_eq]

/-- One layer as the body spells it, for features `h` of any width. -/
theorem layer_eq {f c : Nat} (adj : Vec Ideal S64x64 .f32) (h : FVec Ideal ⟨2, ![64, f]⟩ .f32) (w : FVec Ideal ⟨2, ![f, c]⟩ .f32)
    (b : FVec Ideal ⟨2, ![1, c]⟩ .f32) (d1 : DotDims ⟨2, ![64, f]⟩ ⟨2, ![f, c]⟩ ⟨2, ![64, c]⟩) (hd1 : d1 = DotDims.plain 64 f c)
    (d2 : DotDims ⟨2, ![64, 64]⟩ ⟨2, ![64, c]⟩ ⟨2, ![64, c]⟩) (hd2 : d2 = DotDims.plain 64 64 c)
    (hs : (⟨2, ![1, c]⟩ : Shape).ShapeCasts ⟨2, ![1, c]⟩) (hb : (⟨2, ![1, c]⟩ : Shape).Broadcasts ⟨2, ![64, c]⟩)
    (hcol : (⟨2, ![64, 1]⟩ : Shape).Broadcasts ⟨2, ![64, c]⟩) :
    maximumf (matmul d2 none (k0_pay4 (F := Ideal) adj)
        (mulf (broadcastTo ⟨2, ![64, c]⟩ (k0_pay3 (F := Ideal) adj) hcol)
          (addf (matmul d1 none h w (constant ⟨2, ![64, c]⟩ .f32 0x00000000#32))
            (broadcastTo ⟨2, ![64, c]⟩ (shapeCast ⟨2, ![1, c]⟩ b hs) hb)))
        (constant ⟨2, ![64, c]⟩ .f32 0x00000000#32))
        (broadcast ⟨2, ![64, c]⟩ (Scalar.ofBits (F := Ideal) .f32 0x00000000#32))
      = layer (withLoops adj) h w b := by
  rw [shapeCast_self, matmul_bias_eq_addRow d1 hd1 none h w b hb]
  exact kernel_propagate (withLoops adj) (k0_pay4 (F := Ideal) adj) (rowScaled_apply adj) (k0_pay3 (F := Ideal) adj)
    (fun p => dinv_apply adj p 0) d2 hd2 none _ hcol

/-- The projected features `x · wp + bp` as the body spells them. -/
theorem proj_eq (x : FVec Ideal S64x32 .f32) (wp : FVec Ideal S32x16 .f32) (bp : FVec Ideal S1x16 .f32) :
    addf (matmul dot_S64x32_S32x16_S64x16_1_0_0_1_n_n none x wp (constant (F := Ideal) S64x16 .f32 0x00000000#32))
        (broadcastTo S64x16 (shapeCast S1x16 bp shapeCasts_S1x16_S1x16) broadcasts_S1x16_S64x16)
      = addRow (project x wp) bp := by
  rw [shapeCast_self]
  exact matmul_bias_eq_addRow dot_S64x32_S32x16_S64x16_1_0_0_1_n_n rfl none x wp bp broadcasts_S1x16_S64x16

/-- The first layer's output. -/
theorem hidden1_eq (adj : Vec Ideal S64x64 .f32) (x : Vec Ideal S64x32 .f32) (wp : Vec Ideal S32x16 .f32) (bp : Vec Ideal S1x16 .f32)
    (w1 : Vec Ideal S16x64 .f32) (b1 : Vec Ideal S1x64 .f32) :
    k0_pay5 (F := Ideal) adj x wp bp w1 b1 = layer (withLoops adj) (addRow (project x wp) bp) w1 b1 := by
  unfold k0_pay5
  dsimp only
  rw [proj_eq]
  exact layer_eq adj _ w1 b1 dot_S64x16_S16x64_S64x64_1_0_0_1_n_n rfl dot_S64x64_S64x64_S64x64_1_0_0_1_n_n rfl
    shapeCasts_S1x64_S1x64 broadcasts_S1x64_S64x64 broadcasts_S64x1_S64x64

/-- The stored value: the third layer's output. -/
theorem out_eq (adj : Vec Ideal S64x64 .f32) (h1 : FVec Ideal S64x64 .f32) (w2 : Vec Ideal S64x64 .f32) (b2 : Vec Ideal S1x64 .f32)
    (w3 : Vec Ideal S64x32 .f32) (b3 : Vec Ideal S1x32 .f32) :
    k0_pay1 (F := Ideal) (k0_pay3 (F := Ideal) adj) (k0_pay4 (F := Ideal) adj) h1 w2 (constant S64x64 .f32 0x00000000#32) b2 w3 b3
      = layer (withLoops adj) (layer (withLoops adj) h1 w2 b2) w3 b3 := by
  unfold k0_pay1
  dsimp only
  rw [layer_eq adj h1 w2 b2 dot_S64x64_S64x64_S64x64_1_0_0_1_n_n rfl dot_S64x64_S64x64_S64x64_1_0_0_1_n_n rfl
    shapeCasts_S1x64_S1x64 broadcasts_S1x64_S64x64 broadcasts_S64x1_S64x64]
  exact layer_eq adj _ w3 b3 dot_S64x64_S64x32_S64x32_1_0_0_1_n_n rfl dot_S64x64_S64x32_S64x32_1_0_0_1_n_n rfl
    shapeCasts_S1x32_S1x32 broadcasts_S1x32_S64x32 broadcasts_S64x1_S64x32

end Cert.KernelIdeal.KValue

end
-- ==== Proof.KernelRun.lean ====
/-
  The kernel's run ends with the result array at `Cert.Gcn.net` of the argument arrays.

  The call has a single grid point and every window's block is its whole array (block index `0` on both axes, the block as
  large as the array), so a block read through its window is the array itself.  Before the call the host lays the four bias
  vectors `[N]` out as rows `[1, N]`.  Hence the one write-back stores `net` of the argument arrays, the bias vectors as rows;
  the written block covers the whole result array, so the array ends holding exactly that function.
-/
import proofs.«171218_g81252191306418_cont_sun_m_880_2_alg».proof.Proof.Gen.KernelIdeal.Value
import proofs.«171218_g81252191306418_cont_sun_m_880_2_alg».proof.Proof.KernelValue
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.Value Cert.KernelIdeal.KValue Cert.Gcn

variable (m : (ℓ : Loc nD τ sig) → Buf (Elt Ideal) ℓ) (ρ : Dev nD → PrngReg)

theorem hz : (![0, 0] : Fin 2 → Nat) = fun _ => 0 := funext fun a => by fin_cases a <;> rfl

/-- The grid's one point. -/
def t0 : Fin cfg0.N := ⟨0, by decide⟩

theorem eq_t0 (t : Fin cfg0.N) : t = t0 := Fin.ext (Nat.lt_one_iff.mp (lt_of_lt_of_eq t.isLt N_0))

/-- The result: the network of the argument arrays, each bias vector laid out as a row. -/
abbrev result (c : Dev nD) : Buf (Elt Ideal) ((c : Thread nD τ).loc main_v4) :=
  net (m ((c : Thread nD τ).loc main_arg0)) (m ((c : Thread nD τ).loc main_arg1)) (m ((c : Thread nD τ).loc main_arg2))
    (shapeCast S1x16 (m ((c : Thread nD τ).loc main_arg3)) shapeCasts_S16_S1x16)
    (m ((c : Thread nD τ).loc main_arg4))
    (shapeCast S1x64 (m ((c : Thread nD τ).loc main_arg5)) shapeCasts_S64_S1x64)
    (m ((c : Thread nD τ).loc main_arg6))
    (shapeCast S1x64 (m ((c : Thread nD τ).loc main_arg7)) shapeCasts_S64_S1x64)
    (m ((c : Thread nD τ).loc main_arg8))
    (shapeCast S1x32 (m ((c : Thread nD τ).loc main_arg9)) shapeCasts_S32_S1x32)

/-! ## The bias rows the host lays out before the call -/

theorem V_row0 (c : Dev nD) : (V m c main_v0 : S1x16.Idx → EReal) = shapeCast S1x16 (m ((c : Thread nD τ).loc main_arg3)) shapeCasts_S16_S1x16 := by
  dsimp only [Gen.V, Gen.hostOps0]; after_results; rfl
theorem V_row1 (c : Dev nD) : (V m c main_v1 : S1x64.Idx → EReal) = shapeCast S1x64 (m ((c : Thread nD τ).loc main_arg5)) shapeCasts_S64_S1x64 := by
  dsimp only [Gen.V, Gen.hostOps0]; after_results; rfl
theorem V_row2 (c : Dev nD) : (V m c main_v2 : S1x64.Idx → EReal) = shapeCast S1x64 (m ((c : Thread nD τ).loc main_arg7)) shapeCasts_S64_S1x64 := by
  dsimp only [Gen.V, Gen.hostOps0]; after_results; rfl
theorem V_row3 (c : Dev nD) : (V m c main_v3 : S1x32.Idx → EReal) = shapeCast S1x32 (m ((c : Thread nD τ).loc main_arg9)) shapeCasts_S32_S1x32 := by
  dsimp only [Gen.V, Gen.hostOps0]; after_results; rfl

/-! ## Each input block is its whole array -/

theorem blk0 (c : Dev nD) : iblk m c 0 t0 = V m c main_arg0 := by
  have hz' : (fun a => win0_0.index t0 a * main_arg0.ty.shape.size a) = fun _ => 0 := funext fun a => by fin_cases a <;> decide
  exact Memref.read_access_unit_zero (Elt Ideal) main_arg0 hz' (fun a => by rw [congrFun hz' a]; simp) (V m c main_arg0)
theorem blk1 (c : Dev nD) : iblk m c 1 t0 = V m c main_arg1 := by
  have hz' : (fun a => win0_1.index t0 a * main_arg1.ty.shape.size a) = fun _ => 0 := funext fun a => by fin_cases a <;> decide
  exact Memref.read_access_unit_zero (Elt Ideal) main_arg1 hz' (fun a => by rw [congrFun hz' a]; simp) (V m c main_arg1)
theorem blk2 (c : Dev nD) : iblk m c 2 t0 = V m c main_arg2 := by
  have hz' : (fun a => win0_2.index t0 a * main_arg2.ty.shape.size a) = fun _ => 0 := funext fun a => by fin_cases a <;> decide
  exact Memref.read_access_unit_zero (Elt Ideal) main_arg2 hz' (fun a => by rw [congrFun hz' a]; simp) (V m c main_arg2)
theorem blk3 (c : Dev nD) : iblk m c 3 t0 = V m c main_v0 := by
  have hz' : (fun a => win0_3.index t0 a * main_v0.ty.shape.size a) = fun _ => 0 := funext fun a => by fin_cases a <;> decide
  exact Memref.read_access_unit_zero (Elt Ideal) main_v0 hz' (fun a => by rw [congrFun hz' a]; simp) (V m c main_v0)
theorem blk4 (c : Dev nD) : iblk m c 4 t0 = V m c main_arg4 := by
  have hz' : (fun a => win0_4.index t0 a * main_arg4.ty.shape.size a) = fun _ => 0 := funext fun a => by fin_cases a <;> decide
  exact Memref.read_access_unit_zero (Elt Ideal) main_arg4 hz' (fun a => by rw [congrFun hz' a]; simp) (V m c main_arg4)
theorem blk5 (c : Dev nD) : iblk m c 5 t0 = V m c main_v1 := by
  have hz' : (fun a => win0_5.index t0 a * main_v1.ty.shape.size a) = fun _ => 0 := funext fun a => by fin_cases a <;> decide
  exact Memref.read_access_unit_zero (Elt Ideal) main_v1 hz' (fun a => by rw [congrFun hz' a]; simp) (V m c main_v1)
theorem blk6 (c : Dev nD) : iblk m c 6 t0 = V m c main_arg6 := by
  have hz' : (fun a => win0_6.index t0 a * main_arg6.ty.shape.size a) = fun _ => 0 := funext fun a => by fin_cases a <;> decide
  exact Memref.read_access_unit_zero (Elt Ideal) main_arg6 hz' (fun a => by rw [congrFun hz' a]; simp) (V m c main_arg6)
theorem blk7 (c : Dev nD) : iblk m c 7 t0 = V m c main_v2 := by
  have hz' : (fun a => win0_7.index t0 a * main_v2.ty.shape.size a) = fun _ => 0 := funext fun a => by fin_cases a <;> decide
  exact Memref.read_access_unit_zero (Elt Ideal) main_v2 hz' (fun a => by rw [congrFun hz' a]; simp) (V m c main_v2)
theorem blk8 (c : Dev nD) : iblk m c 8 t0 = V m c main_arg8 := by
  have hz' : (fun a => win0_8.index t0 a * main_arg8.ty.shape.size a) = fun _ => 0 := funext fun a => by fin_cases a <;> decide
  exact Memref.read_access_unit_zero (Elt Ideal) main_arg8 hz' (fun a => by rw [congrFun hz' a]; simp) (V m c main_arg8)
theorem blk9 (c : Dev nD) : iblk m c 9 t0 = V m c main_v3 := by
  have hz' : (fun a => win0_9.index t0 a * main_v3.ty.shape.size a) = fun _ => 0 := funext fun a => by fin_cases a <;> decide
  exact Memref.read_access_unit_zero (Elt Ideal) main_v3 hz' (fun a => by rw [congrFun hz' a]; simp) (V m c main_v3)

/-! ## What the point writes back, the cover, the run -/

/-- The body's result of the whole arrays is the network. -/
theorem out_whole (c : Dev nD) :
    out0_10 (iblk m c 0 t0) (iblk m c 1 t0) (iblk m c 2 t0) (iblk m c 3 t0) (iblk m c 4 t0) (iblk m c 5 t0) (iblk m c 6 t0)
      (iblk m c 7 t0) (iblk m c 8 t0) (iblk m c 9 t0) = result m c := by
  rw [blk0, blk1, blk2, blk3, blk4, blk5, blk6, blk7, blk8, blk9]
  unfold out0_10
  rw [View.canon_unit_zero hz]
  simp only [View.ld_unit_zero (S := S64x64) hz, View.ld_unit_zero (S := S64x32) hz, View.ld_unit_zero (S := S32x16) hz,
    View.ld_unit_zero (S := S1x16) hz, View.ld_unit_zero (S := S16x64) hz, View.ld_unit_zero (S := S1x64) hz,
    View.ld_unit_zero (S := S1x32) hz]
  rw [hidden1_eq, out_eq, V_row0, V_row1, V_row2, V_row3, V_main_arg0, V_main_arg1, V_main_arg2, V_main_arg4, V_main_arg6, V_main_arg8]
  rfl

/-- The one write-back stores the result: the block is the whole array. -/
theorem flushed_eq (c : Dev nD) (t : Fin cfg0.N) :
    (dats m 0 c).flushed 10 t = ((cfg0.win 10).blk t).view.read (Elt Ideal) (result m c) := by
  obtain rfl := eq_t0 t
  rw [Value.flushed10, out_whole]
  have hz' : (fun a => win0_10.index t0 a * main_v4.ty.shape.size a) = fun _ => 0 := funext fun a => by fin_cases a <;> decide
  exact (Memref.read_access_unit_zero (Elt Ideal) main_v4 hz' (fun a => by rw [congrFun hz' a]; simp) (result m c)).symm

/-- So the result array ends holding the network of the arguments: the point's block covers the array. -/
theorem final (c : Dev nD) : (dats m 0 c).arrAt 10 cfg0.N = result m c :=
  (dats m 0 c).arrAt_eq_of_cover 10 (result m c) (fun t _ => flushed_eq m c t) fun i =>
    ⟨t0, flush0_10 t0, by
      show i ∈ ((View.whole main_v4).slice (win0_10.rect t0)).set
      rw [View.set_slice_whole, Rect.mem_set_unit]
      intro a
      have h0 : (i 0 : Nat) < 64 := (i 0).isLt
      have h1 : (i 1 : Nat) < 32 := (i 1).isLt
      match a with
      | ⟨0, _⟩ => show win0_10.index t0 0 * win0_10.size 0 ≤ (i 0 : Nat) ∧ (i 0 : Nat) < win0_10.index t0 0 * win0_10.size 0 + win0_10.xsize (grid0.coords t0) 0
                  rw [show win0_10.index t0 0 * win0_10.size 0 = 0 from by decide +kernel, show win0_10.xsize (grid0.coords t0) 0 = 64 from by decide +kernel]; omega
      | ⟨1, _⟩ => show win0_10.index t0 1 * win0_10.size 1 ≤ (i 1 : Nat) ∧ (i 1 : Nat) < win0_10.index t0 1 * win0_10.size 1 + win0_10.xsize (grid0.coords t0) 1
                  rw [show win0_10.index t0 1 * win0_10.size 1 = 0 from by decide +kernel, show win0_10.xsize (grid0.coords t0) 1 = 32 from by decide +kernel]; omega⟩

/-- The kernel's run: it terminates with the result array at the network of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.KRun

end
-- ==== Proof.RefValue.lean ====
/-
  The reference program computes `Cert.Gcn.net`.

  The reference forms, for each of its three layers anew, the matrix `A = adj + I` (the identity from two iotas), its row
  sums, the vector `d ^ (-1/2)` with infinite entries replaced by zero, and the normalised matrix
  `(s p · A (p, k)) · s k`; it multiplies that matrix with the layer's biased linear map `h · w + b` and clamps at zero.
  Stage by stage:

  * `A` is `withLoops adj` (the diagonal bit converted to a float is `1` on the diagonal and `0` off it);
  * the replaced power is `invSqrtDeg A` (the scalar fact `Cert.Lib.select_isinf_pow_eq`; the sum starts from the word `0`,
    and `0 + s = s`);
  * the product with the normalised matrix, clamped, is `propagate A` after regrouping each summand by associativity
    (`Cert.Gcn.propagate_assoc`);
  * a matrix product followed by the addition of a twice-broadcast bias vector is `addRow (project · w) b`.

  The second and third layers' copies of the normalised matrix are, operation for operation, the first layer's.
-/
import proofs.«171218_g81252191306418_cont_sun_m_880_2_alg».proof.Proof.Gen.ReferenceIdeal.Read
import proofs.«171218_g81252191306418_cont_sun_m_880_2_alg».proof.Proof.GcnSpec
import proofs.«171218_g81252191306418_cont_sun_m_880_2_alg».proof.Proof.LibDiagonal
import Idealize.ShloMosaic.Lib.ValueLayout

noncomputable section

namespace Cert.ReferenceIdeal.RefValue

open Cert.ReferenceIdeal Cert.ReferenceIdeal.Gen Cert.ReferenceIdeal.Read
open Idealize.ShloMosaic Idealize.ShloMosaic.ValueIdx Cert.Layers Cert.Lib Cert.Gcn

/-- A bias vector of length `N` laid out as a row `[1, N]`: the same number of entries. -/
theorem row16 : S16.ShapeCasts S1x16 := by decide
theorem row64 : S64.ShapeCasts S1x64 := by decide
theorem row32 : S32.ShapeCasts S1x32 := by decide

/-- The adjacency plus the identity. -/
theorem loops_eq (adj : FVec Ideal S64x64 .f32) : val_main_v10 (F := Ideal) adj = withLoops adj := by
  funext i
  obtain ⟨p, q, rfl⟩ : ∃ (p : Fin 64) (q : Fin 64), i = ix2 p q := ⟨i 0, i 1, eq_ix2 i⟩
  show adj (ix2 p q) + val_main_v9 (F := Ideal) (ix2 p q) = adj (ix2 p q) + if p = q then 1 else 0
  exact congrArg (adj (ix2 p q) + ·) (host_diag_apply (n := 64) (by norm_num) bcast_S_S64x64 p q)

/-- The vector of `D^(-1/2)`: the power `d ^ (-1/2)` of each row sum, with an infinite value replaced by zero. -/
theorem dinv_apply (adj : FVec Ideal S64x64 .f32) (p : Fin 64) :
    val_main_v15 (F := Ideal) adj (ix1 p) = invSqrtDeg (withLoops adj) p := by
  rw [val_main_v15_apply, val_main_v14_apply, val_main_call0_v0_apply, val_main_call0_v1_apply, val_main_call0_cst_apply,
    val_main_call1_v1_apply, val_main_call1_v0_apply, val_main_cst_1_apply, val_main_v13_apply, val_main_v12_apply,
    val_main_cst_0_apply]
  show Scalar.select (Ideal.cmp .oeq (max (Ideal.pow (val_main_v11 (F := Ideal) adj (ix1 p)) (Ideal.ofBits .f32 0xBF000000#32))
      (-(Ideal.pow (val_main_v11 (F := Ideal) adj (ix1 p)) (Ideal.ofBits .f32 0xBF000000#32)))) (Ideal.ofBits .f32 0x7F800000#32))
      (Ideal.ofBits .f32 0x00000000#32) (Ideal.pow (val_main_v11 (F := Ideal) adj (ix1 p)) (Ideal.ofBits .f32 0xBF000000#32)) = _
  rw [select_isinf_pow_eq]
  refine congrArg guardedRsqrt ?_
  rw [val_main_v11_apply, val_main_cst_apply]
  show Ideal.ofBits .f32 0x00000000#32 + ∑ k : Fin 64, val_main_v10 (F := Ideal) adj (idx_main_v11 (ix1 p) k) = degree (withLoops adj) p
  rw [Ideal.ofBits_zero_f32, zero_add, loops_eq]
  exact Finset.sum_congr rfl fun k _ => congrArg (withLoops adj)
    (funext fun a => Fin.ext (by match a with | ⟨0, _⟩ => rfl | ⟨1, _⟩ => rfl))

/-- The normalised matrix `D^(-1/2) A D^(-1/2)`, entry by entry, grouped as the reference multiplies it. -/
theorem normAdj_apply (adj : FVec Ideal S64x64 .f32) (p k : Fin 64) :
    val_main_v21 (F := Ideal) adj (ix2 p k)
      = (invSqrtDeg (withLoops adj) p * withLoops adj (ix2 p k)) * invSqrtDeg (withLoops adj) k := by
  rw [val_main_v21_apply, val_main_v18_apply, val_main_v17_apply, val_main_v16_apply, val_main_v20_apply, val_main_v19_apply]
  have e1 : idx_main_v16 (idx_main_v17 (ix2 p k)) = ix1 p := funext fun a => Fin.ext (by match a with | ⟨0, _⟩ => rfl)
  have e2 : idx_main_v19 (idx_main_v20 (ix2 p k)) = ix1 k := funext fun a => Fin.ext (by match a with | ⟨0, _⟩ => rfl)
  rw [e1, e2, dinv_apply, dinv_apply, loops_eq]
  rfl

/-- The second and third layers rebuild the same normalised matrix. -/
theorem normAdj2_eq (adj : FVec Ideal S64x64 .f32) : val_main_v45 (F := Ideal) adj = val_main_v21 (F := Ideal) adj := rfl
theorem normAdj3_eq (adj : FVec Ideal S64x64 .f32) : val_main_v69 (F := Ideal) adj = val_main_v21 (F := Ideal) adj := rfl

/-- A matrix with the normalised matrix's entries, times `z`, clamped at a broadcast zero, is the propagation of `z`. -/
theorem host_propagate {c : Nat} (a : (⟨2, ![64, 64]⟩ : Shape).Idx → EReal) (N : FVec Ideal ⟨2, ![64, 64]⟩ .f32)
    (hN : ∀ p k : Fin 64, N (ix2 p k) = (invSqrtDeg a p * a (ix2 p k)) * invSqrtDeg a k)
    (d : DotDims ⟨2, ![64, 64]⟩ ⟨2, ![64, c]⟩ ⟨2, ![64, c]⟩)
    (hd : d = DotDims.plain 64 64 c) (z : FVec Ideal ⟨2, ![64, c]⟩ .f32)
    (h0 : (⟨0, ![]⟩ : Shape).BroadcastsInDim ⟨2, ![64, c]⟩ ![]) :
    maximumf (Host.dotGeneral d none N z)
        (broadcastInDim ⟨2, ![64, c]⟩ ![] h0 (constant (F := Ideal) ⟨0, ![]⟩ .f32 0x00000000#32))
      = propagate a z := by
  rw [dotGeneral_eq_project d hd none N z]
  funext i
  obtain ⟨p, q, rfl⟩ : ∃ (p : Fin 64) (q : Fin c), i = ix2 p q := ⟨i 0, i 1, eq_ix2 i⟩
  show max (project N z (ix2 p q))
      (broadcastInDim ⟨2, ![64, c]⟩ ![] h0 (constant (F := Ideal) ⟨0, ![]⟩ .f32 0x00000000#32) (ix2 p q)) = _
  rw [broadcastInDim_apply ![] h0 _ (ix2 p q) ix0 (fun a => a.elim0), project_apply]
  show max _ (Ideal.ofBits .f32 0x00000000#32) = _
  rw [Ideal.ofBits_zero_f32, ← propagate_assoc]
  exact congrArg (max · 0) (Finset.sum_congr rfl fun k _ => by rw [hN])

/-- The feature projection `x · wp + bp`. -/
theorem proj_eq (x : FVec Ideal S64x32 .f32) (wp : FVec Ideal S32x16 .f32) (bp : FVec Ideal S16 .f32) :
    val_main_v3 (F := Ideal) x wp bp = addRow (project x wp) (shapeCast S1x16 bp row16) := by
  unfold val_main_v3 val_main_v0 val_main_v2 val_main_v1
  rw [dotGeneral_eq_project dot_S64x32_S32x16_S64x16_1_0_0_1_n_n rfl none x wp]
  exact addf_bias_eq_addRow _ bp bcast_S16_S1x16_1 bcast_S1x16_S64x16_0_1 row16

/-- One layer as the reference spells it: the biased linear map of `h`, multiplied from the left with (a copy of) the
    normalised matrix and clamped. -/
theorem layer_eq {f c : Nat} (adj : FVec Ideal S64x64 .f32) (N : FVec Ideal ⟨2, ![64, 64]⟩ .f32)
    (hN : N = val_main_v21 (F := Ideal) adj) (h : FVec Ideal ⟨2, ![64, f]⟩ .f32) (w : FVec Ideal ⟨2, ![f, c]⟩ .f32)
    (b : FVec Ideal ⟨1, ![c]⟩ .f32) (d1 : DotDims ⟨2, ![64, f]⟩ ⟨2, ![f, c]⟩ ⟨2, ![64, c]⟩) (hd1 : d1 = DotDims.plain 64 f c)
    (d2 : DotDims ⟨2, ![64, 64]⟩ ⟨2, ![64, c]⟩ ⟨2, ![64, c]⟩) (hd2 : d2 = DotDims.plain 64 64 c)
    (hb1 : (⟨1, ![c]⟩ : Shape).BroadcastsInDim ⟨2, ![1, c]⟩ ![1]) (hb2 : (⟨2, ![1, c]⟩ : Shape).BroadcastsInDim ⟨2, ![64, c]⟩ ![0, 1])
    (hrow : (⟨1, ![c]⟩ : Shape).ShapeCasts ⟨2, ![1, c]⟩) (h0 : (⟨0, ![]⟩ : Shape).BroadcastsInDim ⟨2, ![64, c]⟩ ![]) :
    maximumf (Host.dotGeneral d2 none N
        (addf (Host.dotGeneral d1 none h w) (broadcastInDim ⟨2, ![64, c]⟩ ![0, 1] hb2 (broadcastInDim ⟨2, ![1, c]⟩ ![1] hb1 b))))
        (broadcastInDim ⟨2, ![64, c]⟩ ![] h0 (constant (F := Ideal) ⟨0, ![]⟩ .f32 0x00000000#32))
      = layer (withLoops adj) h w (shapeCast ⟨2, ![1, c]⟩ b hrow) := by
  subst hN
  rw [dotGeneral_eq_project d1 hd1 none h w, addf_bias_eq_addRow _ b hb1 hb2 hrow]
  exact host_propagate (withLoops adj) _ (normAdj_apply adj) d2 hd2 _ h0

/-- The reference's result is the network of its arguments, each bias vector laid out as a row. -/
theorem result_eq (x : FVec Ideal S64x32 .f32) (adj : FVec Ideal S64x64 .f32) (wp : FVec Ideal S32x16 .f32) (bp : FVec Ideal S16 .f32)
    (w1 : FVec Ideal S16x64 .f32) (b1 : FVec Ideal S64 .f32) (w2 : FVec Ideal S64x64 .f32) (b2 : FVec Ideal S64 .f32)
    (w3 : FVec Ideal S64x32 .f32) (b3 : FVec Ideal S32 .f32) :
    val_main_v75 (F := Ideal) x adj wp bp w1 b1 w2 b2 w3 b3
      = net x adj wp (shapeCast S1x16 bp row16) w1 (shapeCast S1x64 b1 row64) w2 (shapeCast S1x64 b2 row64) w3 (shapeCast S1x32 b3 row32) := by
  have l1 : val_main_v27 (F := Ideal) x adj wp bp w1 b1
      = layer (withLoops adj) (addRow (project x wp) (shapeCast S1x16 bp row16)) w1 (shapeCast S1x64 b1 row64) := by
    rw [← proj_eq]
    exact layer_eq adj _ rfl _ w1 b1 dot_S64x16_S16x64_S64x64_1_0_0_1_n_n rfl dot_S64x64_S64x64_S64x64_1_0_0_1_n_n rfl
      bcast_S64_S1x64_1 bcast_S1x64_S64x64_0_1 row64 bcast_S_S64x64
  have l2 : val_main_v51 (F := Ideal) x adj wp bp w1 b1 w2 b2
      = layer (withLoops adj) (val_main_v27 (F := Ideal) x adj wp bp w1 b1) w2 (shapeCast S1x64 b2 row64) :=
    layer_eq adj _ (normAdj2_eq adj) _ w2 b2 dot_S64x64_S64x64_S64x64_1_0_0_1_n_n rfl dot_S64x64_S64x64_S64x64_1_0_0_1_n_n rfl
      bcast_S64_S1x64_1 bcast_S1x64_S64x64_0_1 row64 bcast_S_S64x64
  have l3 : val_main_v75 (F := Ideal) x adj wp bp w1 b1 w2 b2 w3 b3
      = layer (withLoops adj) (val_main_v51 (F := Ideal) x adj wp bp w1 b1 w2 b2) w3 (shapeCast S1x32 b3 row32) :=
    layer_eq adj _ (normAdj3_eq adj) _ w3 b3 dot_S64x64_S64x32_S64x32_1_0_0_1_n_n rfl dot_S64x64_S64x32_S64x32_1_0_0_1_n_n rfl
      bcast_S32_S1x32_1 bcast_S1x32_S64x32_0_1 row32 bcast_S_S64x32
  rw [l3, l2, l1]
  rfl

end Cert.ReferenceIdeal.RefValue

end
-- ==== Proof.lean ====
/-
  A fused three-layer graph-convolution kernel against its array-program reference, over the extended reals.

  Both compute, for node features `x`, a dense adjacency `adj` and the layers' weights and biases,

      h₀ = x · Wp + bp,      hₗ₊₁ = max (D^(-1/2) (adj + I) D^(-1/2) (hₗ · Wₗ + bₗ)) 0      (three layers),

  where `D` is the diagonal matrix of the row sums of `adj + I` and an entry of `D^(-1/2)` is `0` where the row sum is not
  positive: the function `Cert.Gcn.net` (Proof/GcnSpec.lean).  They differ in two places only.

  * The entry of `D^(-1/2)`.  The kernel compares the row sum `d` with zero and takes the reciprocal square root where it is
    positive; the reference takes the power `d ^ (-1/2)` and replaces an infinite value by zero.  On the extended reals the
    two agree for EVERY `d` (Proof/LibGuardedRsqrt.lean): `1/√d` for a positive real; `0` at `d = 0`, where the real power of a zero
    base is `0`; `0` for a negative real, where the real power `exp (-(1/2) log |d|) · cos (-(π/2))` vanishes with the cosine;
    `0` at `+∞`; and at `-∞` the power `-∞` is replaced.
  * The grouping of the propagation.  The kernel scales the adjacency's rows and the features' rows separately and multiplies,
    `∑ₖ (s p · A (p, k)) · (s k · z (k, q))`; the reference forms the normalised matrix first,
    `∑ₖ ((s p · A (p, k)) · s k) · z (k, q)`, and rebuilds it in every layer.  Multiplication of extended reals is associative,
    so the summands are equal one by one.

  Neither step needs an input to be finite, so the precondition is not opened.  The kernel's result array is read off its
  generated run block by block (one grid point, every block a whole array: Proof/KernelRun.lean, over Proof/KernelValue.lean); the
  reference's is read off its generated run operation by operation (Proof/RefValue.lean).  The idealization rewrote no
  operation of the kernel, so there is nothing to preserve.
-/
import proofs.«171218_g81252191306418_cont_sun_m_880_2_alg».proof.Defs
import proofs.«171218_g81252191306418_cont_sun_m_880_2_alg».proof.Proof.Gen.Kernel
import proofs.«171218_g81252191306418_cont_sun_m_880_2_alg».proof.Proof.Gen.Kernel.Skeleton
import proofs.«171218_g81252191306418_cont_sun_m_880_2_alg».proof.Proof.Gen.Kernel.Launch
import proofs.«171218_g81252191306418_cont_sun_m_880_2_alg».proof.Proof.Gen.Kernel.Points
import proofs.«171218_g81252191306418_cont_sun_m_880_2_alg».proof.Proof.Gen.Kernel.Frame
import proofs.«171218_g81252191306418_cont_sun_m_880_2_alg».proof.Proof.Gen.KernelIdeal
import proofs.«171218_g81252191306418_cont_sun_m_880_2_alg».proof.Proof.Gen.KernelIdeal.Skeleton
import proofs.«171218_g81252191306418_cont_sun_m_880_2_alg».proof.Proof.Gen.KernelIdeal.Launch
import proofs.«171218_g81252191306418_cont_sun_m_880_2_alg».proof.Proof.Gen.KernelIdeal.Points
import proofs.«171218_g81252191306418_cont_sun_m_880_2_alg».proof.Proof.Gen.KernelIdeal.Frame
import proofs.«171218_g81252191306418_cont_sun_m_880_2_alg».proof.Proof.Gen.ReferenceIdeal
import proofs.«171218_g81252191306418_cont_sun_m_880_2_alg».proof.Proof.Gen.Pre_finite_inputs
import proofs.«171218_g81252191306418_cont_sun_m_880_2_alg».proof.Proof.Gen.KernelIdeal.Value
import proofs.«171218_g81252191306418_cont_sun_m_880_2_alg».proof.Proof.Gen.ReferenceIdeal.Run
import proofs.«171218_g81252191306418_cont_sun_m_880_2_alg».proof.Proof.Gen.ReferenceIdeal.Read
import proofs.«171218_g81252191306418_cont_sun_m_880_2_alg».proof.Proof.KernelRun
import proofs.«171218_g81252191306418_cont_sun_m_880_2_alg».proof.Proof.RefValue
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the arguments, the kernel ends with its result array at `net` of its arguments
    (bias vectors laid out as rows) and the reference with its result at `net` of its own: one function of equal arguments. -/
theorem algebraic : Cert.algebraic_KernelIdeal_ReferenceIdeal := by
  intro m ρ m' ρ' _ hagree
  refine ⟨fun c => Cert.KernelIdeal.KRun.result m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
